-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v0)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S10000x512 : Shape := ⟨2, ![10000, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_

variable [Facts]

def fn {F : FTy → Type} [FloatOps F] (main_arg0 : FVec F S4096x512 .f32) (main_arg1 : IVec S4096 32) (main_arg2 : FVec F S10000x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S10000x512 .f32 := Host.absf main_arg2
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  main_v8
-- ==== Kernel.lean ====
abbrev S4096x512 : Shape := ⟨2, ![4096, 512]⟩
abbrev S4096 : Shape := ⟨1, ![4096]⟩
abbrev S10000x512 : Shape := ⟨2, ![10000, 512]⟩
abbrev S4096x10000 : Shape := ⟨2, ![4096, 10000]⟩
abbrev S512x512 : Shape := ⟨2, ![512, 512]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1x2048 : Shape := ⟨2, ![1, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S4096x10000, .f32⟩
  | .local _ .vmem, ⟨0, _⟩ => ⟨S512x512, .f32⟩
  | .local _ .vmem, ⟨1, _⟩ => ⟨S512x512, .f32⟩
  | .local _ .vmem, ⟨2, _⟩ => ⟨S2048x512, .f32⟩
  | .local _ .vmem, ⟨3, _⟩ => ⟨S2048x512, .f32⟩
  | .local _ .vmem, ⟨4, _⟩ => ⟨S512x2048, .f32⟩
  | .local _ .vmem, ⟨5, _⟩ => ⟨S512x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  reduces_S512x512_S512 : S512x512.Reduces [1] S512
  shapeCasts_S512_S512x1 : S512.ShapeCasts S512x1
  reduces_S2048x512_S2048 : S2048x512.Reduces [1] S2048
  shapeCasts_S2048_S1x2048 : S2048.ShapeCasts S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x512.size a < S10000x512.size a
  hwx0_1 : ∀ i : grid0.Coords, EltTy.bits .f32 = 32 ∨ (Rect.unit (s := S10000x512) (fun a => cc0_transform_1 i a * S2048x512.size a) (fun a => (Pipeline.Clip.of (cc0_transform_1 i a) (S2048x512.size a) (S10000x512.size a)).extent (S2048x512.size a)) fun a => Pipeline.Clip.inb (Pipeline.Clip.ok_of (hstart0_1 i a))).WholeWords (EltTy.packing .f32)
  hwxs0_1 : ∀ i : grid0.Coords, EltTy.bits .f32 = 32 ∨ (Rect.unit (s := S2048x512) (fun _ => 0) (fun a => (Pipeline.Clip.of (cc0_transform_1 i a) (S2048x512.size a) (S10000x512.size a)).extent (S2048x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x2048.size a < S4096x10000.size a
  hwx0_2 : ∀ i : grid0.Coords, EltTy.bits .f32 = 32 ∨ (Rect.unit (s := S4096x10000) (fun a => cc0_transform_2 i a * S512x2048.size a) (fun a => (Pipeline.Clip.of (cc0_transform_2 i a) (S512x2048.size a) (S4096x10000.size a)).extent (S512x2048.size a)) fun a => Pipeline.Clip.inb (Pipeline.Clip.ok_of (hstart0_2 i a))).WholeWords (EltTy.packing .f32)
  hwxs0_2 : ∀ i : grid0.Coords, EltTy.bits .f32 = 32 ∨ (Rect.unit (s := S512x2048) (fun _ => 0) (fun a => (Pipeline.Clip.of (cc0_transform_2 i a) (S512x2048.size a) (S4096x10000.size a)).extent (S512x2048.size a)) fun a => (Nat.zero_add _).trans_le (Pipeline.Clip.extent_le (Pipeline.Clip.ok_of (hstart0_2 i a)))).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S2048x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S512x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S10000x512 : Shape := ⟨2, ![10000, 512]⟩
abbrev S_ : Shape := ⟨0, ![]⟩
abbrev S4096x1 : Shape := ⟨2, ![4096, 1]⟩
abbrev S10000 : Shape := ⟨1, ![10000]⟩
abbrev S1x10000 : Shape := ⟨2, ![1, 10000]⟩
abbrev S4096x10000 : Shape := ⟨2, ![4096, 10000]⟩

abbrev nBuf : Space → Nat
  | .hbm => 32
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S10000x512, .f32⟩
  | .hbm, ⟨8, _⟩ => ⟨S_, .f32⟩
  | .hbm, ⟨9, _⟩ => ⟨S10000, .f32⟩
  | .hbm, ⟨10, _⟩ => ⟨S1x10000, .f32⟩
  | .hbm, ⟨11, _⟩ => ⟨S4096x10000, .f32⟩
  | .hbm, ⟨12, _⟩ => ⟨S4096x10000, .f32⟩
  | .hbm, ⟨13, _⟩ => ⟨S4096x10000, .f32⟩
  | .hbm, ⟨14, _⟩ => ⟨S4096x10000, .f32⟩
  | .hbm, ⟨15, _⟩ => ⟨S_, .f32⟩
  | .hbm, ⟨16, _⟩ => ⟨S4096x10000, .f32⟩
  | .hbm, ⟨17, _⟩ => ⟨S4096x10000, .f32⟩
  | .hbm, ⟨18, _⟩ => ⟨S4096x10000, .f32⟩
  | .hbm, ⟨19, _⟩ => ⟨S_, .f32⟩
  | .hbm, ⟨20, _⟩ => ⟨S4096x10000, .f32⟩
  | .hbm, ⟨21, _⟩ => ⟨S4096x10000, .f32⟩
  | .hbm, ⟨22, _⟩ => ⟨S_, .f32⟩
  | .hbm, ⟨23, _⟩ => ⟨S4096x10000, .f32⟩
  | .hbm, ⟨24, _⟩ => ⟨S4096x10000, .f32⟩
  | .hbm, ⟨25, _⟩ => ⟨S4096x10000, .f32⟩
  | .hbm, ⟨26, _⟩ => ⟨S_, .f32⟩
  | .hbm, ⟨27, _⟩ => ⟨S4096x10000, .f32⟩
  | .hbm, ⟨28, _⟩ => ⟨S4096x10000, .f32⟩
  | .hbm, ⟨29, _⟩ => ⟨S_, .f32⟩
  | .hbm, ⟨30, _⟩ => ⟨S4096x10000, .f32⟩
  | .hbm, ⟨31, _⟩ => ⟨S4096x10000, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S10000x512_S10000_d1 : S10000x512.ReducesTo [1] S10000
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  bcast_S_S4096x10000 : S_.BroadcastsInDim S4096x10000 (![] : Fin 0 → Fin S4096x10000.rank)
  dot_S4096x512_S10000x512_S4096x10000_1_1_0_0_n_n_wf : DotDims.WF S4096x512 S10000x512 S4096x10000 [1] [1] [0] [0] [] []

variable [Facts₀]

def dot_S4096x512_S10000x512_S4096x10000_1_1_0_0_n_n : DotDims S4096x512 S10000x512 S4096x10000 where
  lhsContracting := [1]
  rhsContracting := [1]
  lhsNonContracting := [0]
  rhsNonContracting := [0]
  lhsBatch := []
  rhsBatch := []
  wf := dot_S4096x512_S10000x512_S4096x10000_1_1_0_0_n_n_wf

class Facts : Prop extends Facts₀ where

variable [Facts]
-- ==== Proof.TileBits.lean ====
/-
  One grid point of the pairwise squared-distance kernel, as a function of what its three staging buffers hold.
  The body reads the feature tile `x0` (512 rows of 512 features) and the weight tile `x1` (2048 rows of 512
  features) whole, and overwrites the whole 512 × 2048 output tile with
      exp (c · max (‖x0 r‖² + ‖x1 k‖² − 2 · ⟨x0 r, x1 k⟩, 0))          (row r, column k),
  the term `k0_pay1 x0 x1`.  Nothing else is read or written: both inputs are left as found, and what the output
  tile held before is overwritten everywhere.  The statement holds at every float instance.
-/
import proofs.«122129_j77369540870222_2_alg».proof.Proof.Gen.Kernel.Frame
import proofs.«122129_j77369540870222_2_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three whole-tile rectangles the body loads and stores through: offsets zero, the tile's own sizes. -/
abbrev rFeat : Rect S512x512 := Rect.unit (s := S512x512) ![0, 0] S512x512.size Gen.inb_S512x512_S512x512_0_0
abbrev rWeight : Rect S2048x512 := Rect.unit (s := S2048x512) ![0, 0] S2048x512.size Gen.inb_S2048x512_S2048x512_0_0
abbrev rOut : Rect S512x2048 := Rect.unit (s := S512x2048) ![0, 0] S512x2048.size Gen.inb_S512x2048_S512x2048_0_0

theorem zero_offsets : (![0, 0] : Fin 2 → Nat) = fun _ => 0 := funext fun a => by fin_cases a <;> rfl

/-- What the output tile holds after the body: its one store, of the whole tile. -/
def stored (x0 : Vec F S512x512 .f32) (x1 : Vec F S2048x512 .f32) : Vec F S512x2048 .f32 :=
  View.canon [⟨rOut, k0_pay1 (View.ld x0 rFeat) (View.ld x1 rWeight)⟩]

/-- The one store covers the tile, and the loads read the tiles whole: the output tile is the body's term of the two
    input tiles. -/
theorem stored_eq (x0 : Vec F S512x512 .f32) (x1 : Vec F S2048x512 .f32) : stored x0 x1 = k0_pay1 x0 x1 := by
  unfold stored
  rw [View.canon_unit_zero zero_offsets, View.ld_unit_zero zero_offsets, View.ld_unit_zero zero_offsets]

/-- The one store reaches every index of the tile. -/
theorem cover (p : Vec F S512x2048 .f32) (y : S512x2048.Idx) :
    ∃ pc ∈ ([⟨rOut, p⟩] : List (View.Piece (Elt F) S512x2048 .f32)), y ∈ pc.1.set :=
  ⟨_, List.mem_singleton_self _, View.mem_set_unit_zero zero_offsets Gen.inb_S512x2048_S512x2048_0_0 y⟩

set_option maxHeartbeats 1000000 in
/-- The body on whole staging buffers: from the inputs at `x0`, `x1` and the output at anything, it runs to the
    inputs unchanged and the output at `stored x0 x1`. -/
theorem sound_kernel (c : Dev nD) (E : Set ℕ) (i : grid0.Coords)
    (arg2 : Memref sig .tc .vmem S512x512 .f32) (harg2 : arg2.IsWhole)
    (arg3 : Memref sig .tc .vmem S2048x512 .f32) (harg3 : arg3.IsWhole)
    (arg4 : Memref sig .tc .vmem S512x2048 .f32) (harg4 : arg4.IsWhole)
    (x0 : Vec F S512x512 .f32) (x1 : Vec F S2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (stored x0 x1)) -∗ K ⟨⟩))
      ⊢ wp frame (wpE (defs₀ (F := F)) Variants.none c none) E (cc0__kmetric_kernel i arg2 harg2 arg3 harg3 arg4 harg4) K := by
  simp only [cc0__kmetric_kernel_eq_skeleton]; unfold cc0__kmetric_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

end Cert.Kernel.Tile

end
-- ==== Proof.FrameBits.lean ====
/-
  The word-level kernel runs to the end and leaves its arguments as they were.  Nothing here depends on what the
  staging buffers hold: at every grid point the body reads two of them whole, overwrites the third whole and touches
  nothing else, so each buffer is handed to the body at some contents and taken back at some contents, none of them
  named.  The argument arrays are inputs of the pipeline (never written back) or bypass it, so they end as launched.
-/
import proofs.«122129_j77369540870222_2_alg».proof.Proof.TileBits

set_option maxRecDepth 16384

noncomputable section

namespace Cert.Kernel.Unnamed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window's staging contents go unnamed. -/
def unnamedAll : Fin 3 → Bool := fun _ => true

/-- The pipeline's proof data on core `c`: the arrays as launched; what the body leaves in each staging buffer is not
    named; the invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with at point `t`: each window's current buffer at some contents, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d))

/-- and what it returns: the same, at some contents. -/
def bodyPost (c : Dev nD) (t : Fin cfg0.N) : sProp 𝕄 :=
  iprop((dats m 0 c).Φ t.succ ∗ (dats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d))

/-- The body at any point: it runs on whatever the three buffers hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  iapply (Tile.sound_kernel c Set.univ (grid0.coords t) _ _ _ _ _ _ d0 d1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

/-- The body obligation at every point, every window's contents unnamed. -/
theorem body_obligation (c : Dev nD) :
    BodyObligation (dats (F := F) m 0 c) (defs₀ (F := F)) Variants.none () Set.univ unnamedAll := fun t => by
  rw [bigSep_W0, bigSep_W0]
  exact sound_body m c t

set_option backward.isDefEq.respectTransparency.types false in
/-- Every weakly fair execution of @main terminates, nothing faulting; every input array of the pipeline ends at its
    launch contents and every unscoped buffer that bypasses the pipeline at its own. -/
theorem run_main : θ_run defs (onTc (τ := τ) (main (F := F))) (s₀ m ρ)
    (Pipeline.RDat.FramePost (cfgs 0) (fun c => (dats m 0 c).toRForget unnamedAll) (V m)) :=
  Pipeline.RDat.θ_run_frame cfgs (0 : Fin 1) launch0 defs₀ Variants.none (fun c => (dats m 0 c).toRForget unnamedAll) m ρ main
    (hbody := fun c => (body_obligation m c).toRForget)
    (hshare := fun c => ((dats m 0 c).toRForget unnamedAll).share_full fun _ => rfl)
    (howed := fun _ _ => rfl) (V := V m) (hmain := hmain m Variants.none) (hA := A_eq m) (hΦ := fun _ _ => rfl)

/-- The frame: the three argument arrays end unchanged — the features and the weights as inputs of the pipeline, the
    labels as a buffer the pipeline never sees. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget unnamedAll).ArrAt_in 0 rfl _) _) ((h c).1 0)).trans
        ((A_eq m c 0).trans (V_main_arg0 m c)),
      ((h c).2 main_arg1 (Pipeline.mem_restRefs_of main_arg1 (by decide) (by decide))).trans (V_main_arg1 m c),
      (Eq.mp (congrFun (((dats m 0 c).toRForget unnamedAll).ArrAt_in 1 rfl _) _) ((h c).1 1)).trans
        ((A_eq m c 1).trans (V_main_arg2 m c))⟩) (run_main m ρ)

end Cert.Kernel.Unnamed

end
-- ==== Proof.TileIdeal.lean ====
/-
  One grid point of the pairwise squared-distance kernel, as a function of what its three staging buffers hold.
  The body reads the feature tile `x0` (512 rows of 512 features) and the weight tile `x1` (2048 rows of 512
  features) whole, and overwrites the whole 512 × 2048 output tile with
      exp (c · max (‖x0 r‖² + ‖x1 k‖² − 2 · ⟨x0 r, x1 k⟩, 0))          (row r, column k),
  the term `k0_pay1 x0 x1`.  Nothing else is read or written: both inputs are left as found, and what the output
  tile held before is overwritten everywhere.  The statement holds at every float instance.
-/
import proofs.«122129_j77369540870222_2_alg».proof.Proof.Gen.KernelIdeal.Frame
import proofs.«122129_j77369540870222_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three whole-tile rectangles the body loads and stores through: offsets zero, the tile's own sizes. -/
abbrev rFeat : Rect S512x512 := Rect.unit (s := S512x512) ![0, 0] S512x512.size Gen.inb_S512x512_S512x512_0_0
abbrev rWeight : Rect S2048x512 := Rect.unit (s := S2048x512) ![0, 0] S2048x512.size Gen.inb_S2048x512_S2048x512_0_0
abbrev rOut : Rect S512x2048 := Rect.unit (s := S512x2048) ![0, 0] S512x2048.size Gen.inb_S512x2048_S512x2048_0_0

theorem zero_offsets : (![0, 0] : Fin 2 → Nat) = fun _ => 0 := funext fun a => by fin_cases a <;> rfl

/-- What the output tile holds after the body: its one store, of the whole tile. -/
def stored (x0 : Vec F S512x512 .f32) (x1 : Vec F S2048x512 .f32) : Vec F S512x2048 .f32 :=
  View.canon [⟨rOut, k0_pay1 (View.ld x0 rFeat) (View.ld x1 rWeight)⟩]

/-- The one store covers the tile, and the loads read the tiles whole: the output tile is the body's term of the two
    input tiles. -/
theorem stored_eq (x0 : Vec F S512x512 .f32) (x1 : Vec F S2048x512 .f32) : stored x0 x1 = k0_pay1 x0 x1 := by
  unfold stored
  rw [View.canon_unit_zero zero_offsets, View.ld_unit_zero zero_offsets, View.ld_unit_zero zero_offsets]

/-- The one store reaches every index of the tile. -/
theorem cover (p : Vec F S512x2048 .f32) (y : S512x2048.Idx) :
    ∃ pc ∈ ([⟨rOut, p⟩] : List (View.Piece (Elt F) S512x2048 .f32)), y ∈ pc.1.set :=
  ⟨_, List.mem_singleton_self _, View.mem_set_unit_zero zero_offsets Gen.inb_S512x2048_S512x2048_0_0 y⟩

set_option maxHeartbeats 1000000 in
/-- The body on whole staging buffers: from the inputs at `x0`, `x1` and the output at anything, it runs to the
    inputs unchanged and the output at `stored x0 x1`. -/
theorem sound_kernel (c : Dev nD) (E : Set ℕ) (i : grid0.Coords)
    (arg2 : Memref sig .tc .vmem S512x512 .f32) (harg2 : arg2.IsWhole)
    (arg3 : Memref sig .tc .vmem S2048x512 .f32) (harg3 : arg3.IsWhole)
    (arg4 : Memref sig .tc .vmem S512x2048 .f32) (harg4 : arg4.IsWhole)
    (x0 : Vec F S512x512 .f32) (x1 : Vec F S2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (stored x0 x1)) -∗ K ⟨⟩))
      ⊢ wp frame (wpE (defs₀ (F := F)) Variants.none c none) E (cc0__kmetric_kernel i arg2 harg2 arg3 harg3 arg4 harg4) K := by
  simp only [cc0__kmetric_kernel_eq_skeleton]; unfold cc0__kmetric_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

end Cert.KernelIdeal.Tile

end
-- ==== Proof.LibKeepdims.lean ====
/-
  A row statistic kept as a column: reading, at an index given by coordinates, a vector cast to a one-column matrix and
  a one-column matrix broadcast along its rows.  (The library reads the leading-unit-axis casts and the one-row
  broadcast the same way; these are the column forms a sum with kept dimensions produces.)
-/
import Idealize.ShloMosaic.Lib.ValueLayout

namespace Cert.LibKeepdims

open Idealize.ShloMosaic Idealize.ShloMosaic.ValueIdx

variable {α : Type}

/-- An `[a]` vector cast to the column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.SqDist.lean ====
/-
  The function both programs compute, on the extended reals.  For a feature row `f` and a weight row `w` (512 entries
  each) the entry of the result is
      cell f w = exp (c · max ((∑ₖ fₖ² + ∑ₖ wₖ²) − 2 · ∑ₖ fₖ wₖ, 0)),
  the radial kernel of the squared distance ‖f − w‖² expanded by the Gram identity and clamped at zero; `c` is the
  float nearest −1/100 and `2` the float two, the same two words in both programs, so neither is evaluated.  The
  result array has this entry at (b, j) for row b of the features and row j of the weights.
-/
import Idealize.ShloMosaic.PureOps.Ideal
import Idealize.ShloMosaic.Lib.ValueIdx

noncomputable section

namespace Cert.SqDist

open Idealize.ShloMosaic Idealize.ShloMosaic.ValueIdx

/-- One entry: from a feature row and a weight row. -/
def cell (f w : Fin 512 → EReal) : EReal :=
  Ideal.exp (Ideal.ofBits .f32 0xBC23D70A#32
    * max (((∑ k : Fin 512, f k * f k) + (∑ k : Fin 512, w k * w k))
            - Ideal.ofBits .f32 0x40000000#32 * ∑ k : Fin 512, f k * w k) 0)

/-- The whole result: entry (b, j) from row b of the features and row j of the weights. -/
def logits (feat : (⟨2, ![4096, 512]⟩ : Shape).Idx → EReal) (wts : (⟨2, ![10000, 512]⟩ : Shape).Idx → EReal) :
    (⟨2, ![4096, 10000]⟩ : Shape).Idx → EReal :=
  fun i => cell (fun k => feat (ix2 (i 0) k)) (fun k => wts (ix2 (i 1) k))

end Cert.SqDist

end
-- ==== Proof.TileValue.lean ====
/-
  One tile of the kernel, read entry by entry on the extended reals.  With `x0` the 512 × 512 feature tile and `x1` the
  2048 × 512 weight tile, the body's term `k0_pay1 x0 x1` has at (p, q) the entry `SqDist.cell` of row p of `x0` and row
  q of `x1`: the two lane sums are the rows' sums of squares (kept as a column, resp. a row, and broadcast over the
  tile), the matrix product into a zero accumulator is the rows' inner product (rounding to bf16 is the identity here),
  and the remaining operations act entry by entry.  Only rows p and q are read: an entry does not depend on any other
  row of either tile.
-/
import proofs.«122129_j77369540870222_2_alg».proof.Proof.Gen.KernelIdeal.Skeleton
import proofs.«122129_j77369540870222_2_alg».proof.Proof.LibKeepdims
import proofs.«122129_j77369540870222_2_alg».proof.Proof.SqDist
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx

/-- A lane sum over the columns of a 512-row tile, kept as a column and broadcast over 2048 columns: at (p, q) the sum
    of row p. -/
theorem rowSum_col (v : FVec Ideal S512x512 .f32) (hred : S512x512.Reduces [1] S512) (hφ : FKind.Formats .f32)
    (hacc : (0x00000000#32 : BitVec 32) = 0x00000000#32) (hsc : S512.ShapeCasts S512x1)
    (hbc : S512x1.Broadcasts S512x2048) (p : Fin 512) (q : Fin 2048) :
    broadcastTo S512x2048 (shapeCast S512x1 (multiReduction (F := Ideal) .add [1] S512 v 0x00000000#32 hred hφ hacc) hsc) hbc (ix2 p q)
      = ∑ k : Fin 512, v (ix2 p k) :=
  (LibKeepdims.broadcastTo_a1_ab_apply _ hbc p q).trans
    ((LibKeepdims.shapeCast_a_a1_apply _ hsc p (0 : Fin 1)).trans
      ((Ideal.multiReduction_add_single v 0x00000000#32 hred hφ hacc (ix1 p)).trans
        (Finset.sum_congr rfl fun k _ => congrArg v (funext fun a => Fin.ext (by
          match a with | ⟨0, _⟩ => rfl | ⟨1, _⟩ => rfl)))))

/-- A lane sum over the columns of a 2048-row tile, laid out as one row and broadcast over 512 rows: at (p, q) the sum
    of row q. -/
theorem rowSum_row (v : FVec Ideal S2048x512 .f32) (hred : S2048x512.Reduces [1] S2048) (hφ : FKind.Formats .f32)
    (hacc : (0x00000000#32 : BitVec 32) = 0x00000000#32) (hsc : S2048.ShapeCasts S1x2048)
    (hbc : S1x2048.Broadcasts S512x2048) (p : Fin 512) (q : Fin 2048) :
    broadcastTo S512x2048 (shapeCast S1x2048 (multiReduction (F := Ideal) .add [1] S2048 v 0x00000000#32 hred hφ hacc) hsc) hbc (ix2 p q)
      = ∑ k : Fin 512, v (ix2 q k) :=
  (broadcastTo_1b_ab_apply _ hbc p q).trans
    ((shapeCast_a_1a_apply _ hsc (0 : Fin 1) q).trans
      ((Ideal.multiReduction_add_single v 0x00000000#32 hred hφ hacc (ix1 q)).trans
        (Finset.sum_congr rfl fun k _ => congrArg v (funext fun a => Fin.ext (by
          match a with | ⟨0, _⟩ => rfl | ⟨1, _⟩ => rfl)))))

/-! The product of the feature tile with the transposed weight tile contracts the second axis of both. -/

theorem lhs_0 (i : S512x2048.Idx) (k : dot_S512x512_S2048x512_S512x2048_1_1_0_0_n_n.contr.Idx) : (dot_S512x512_S2048x512_S512x2048_1_1_0_0_n_n.lhsIdx i k 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl
theorem lhs_1 (i : S512x2048.Idx) (k : dot_S512x512_S2048x512_S512x2048_1_1_0_0_n_n.contr.Idx) : (dot_S512x512_S2048x512_S512x2048_1_1_0_0_n_n.lhsIdx i k 1).val = (k ⟨0, by decide⟩).val :=
  dot_S512x512_S2048x512_S512x2048_1_1_0_0_n_n.lhsIdx_val_of_single rfl i k
theorem rhs_0 (i : S512x2048.Idx) (k : dot_S512x512_S2048x512_S512x2048_1_1_0_0_n_n.contr.Idx) : (dot_S512x512_S2048x512_S512x2048_1_1_0_0_n_n.rhsIdx i k 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl
theorem rhs_1 (i : S512x2048.Idx) (k : dot_S512x512_S2048x512_S512x2048_1_1_0_0_n_n.contr.Idx) : (dot_S512x512_S2048x512_S512x2048_1_1_0_0_n_n.rhsIdx i k 1).val = (k ⟨0, by decide⟩).val :=
  dot_S512x512_S2048x512_S512x2048_1_1_0_0_n_n.rhsIdx_val_of_single rfl i k

/-- The matrix product into a zero accumulator: at (p, q) the inner product of row p of the left tile and row q of the
    right tile. -/
theorem inner_apply (l : FVec Ideal S512x512 .bf16) (r : FVec Ideal S2048x512 .bf16) (p : Fin 512) (q : Fin 2048) :
    matmul (F := Ideal) dot_S512x512_S2048x512_S512x2048_1_1_0_0_n_n none l r (constant S512x2048 .f32 0x00000000#32) (ix2 p q)
      = ∑ k : Fin 512, l (ix2 p k) * r (ix2 q k) := by
  refine (Ideal.matmul_constant_zero_apply dot_S512x512_S2048x512_S512x2048_1_1_0_0_n_n none l r (ix2 p q)).trans ?_
  rw [← Equiv.sum_comp (ValueIdx.contrEquiv1 dot_S512x512_S2048x512_S512x2048_1_1_0_0_n_n 512 rfl rfl).symm]
  refine Finset.sum_congr rfl fun k _ => ?_
  have hk := ValueIdx.contrEquiv1_symm_val dot_S512x512_S2048x512_S512x2048_1_1_0_0_n_n 512 rfl rfl k
  have el : dot_S512x512_S2048x512_S512x2048_1_1_0_0_n_n.lhsIdx (ix2 p q) ((ValueIdx.contrEquiv1 dot_S512x512_S2048x512_S512x2048_1_1_0_0_n_n 512 rfl rfl).symm k) = ix2 p k :=
    funext fun a => Fin.ext (by
      match a with
      | ⟨0, _⟩ => exact lhs_0 _ _
      | ⟨1, _⟩ => exact (lhs_1 _ _).trans hk)
  have er : dot_S512x512_S2048x512_S512x2048_1_1_0_0_n_n.rhsIdx (ix2 p q) ((ValueIdx.contrEquiv1 dot_S512x512_S2048x512_S512x2048_1_1_0_0_n_n 512 rfl rfl).symm k) = ix2 q k :=
    funext fun a => Fin.ext (by
      match a with
      | ⟨0, _⟩ => exact rhs_0 _ _
      | ⟨1, _⟩ => exact (rhs_1 _ _).trans hk)
  rw [el, er]

/-- The body's term at an entry of the tile. -/
theorem tile_apply (x0 : Vec Ideal S512x512 .f32) (x1 : Vec Ideal S2048x512 .f32) (p : Fin 512) (q : Fin 2048) :
    k0_pay1 (F := Ideal) x0 x1 (ix2 p q) = SqDist.cell (fun k => x0 (ix2 p k)) (fun k => x1 (ix2 q k)) := by
  have hA : _ = ∑ k : Fin 512, x0 (ix2 p k) * x0 (ix2 p k) :=
    rowSum_col (mulf x0 x0) Gen.reduces_S512x512_S512 (.inl rfl) rfl Gen.shapeCasts_S512_S512x1
      Gen.broadcasts_S512x1_S512x2048 p q
  have hB : _ = ∑ k : Fin 512, x1 (ix2 q k) * x1 (ix2 q k) :=
    rowSum_row (mulf x1 x1) Gen.reduces_S2048x512_S2048 (.inl rfl) rfl Gen.shapeCasts_S2048_S1x2048
      Gen.broadcasts_S1x2048_S512x2048 p q
  have hC : _ = ∑ k : Fin 512, x0 (ix2 p k) * x1 (ix2 q k) :=
    inner_apply (truncf .bf16 x0 Gen.bitsLt_bf16_f32) (truncf .bf16 x1 Gen.bitsLt_bf16_f32) p q
  exact congrArg Ideal.exp (congrArg (Ideal.ofBits .f32 0xBC23D70A#32 * ·)
    (congr (congrArg max (congr (congrArg HSub.hSub (congr (congrArg HAdd.hAdd hA) hB))
      (congrArg (Ideal.ofBits .f32 0x40000000#32 * ·) hC))) Ideal.ofBits_zero_f32))

end Cert.KernelIdeal.TileValue

end
-- ==== Proof.IdealRun.lean ====
/-
  The idealized kernel's run, with every tile named.  The grid has 5 × 8 points; point (jc, ib) stages rows
  512·ib … 512·ib + 511 of the features, rows 2048·jc … of the weights, and writes back rows 512·ib …, columns 2048·jc …
  of the result.  The last weight tile and the last result tiles overhang their arrays (10000 = 4 · 2048 + 1808): the
  weight tile's rows past the array's end hold words nothing names, and the result tile's columns past the end are
  never written back.  An entry of the output tile depends only on one row of each input tile
  (`TileValue.tile_apply`), and the columns that are written back come from weight rows inside the array, so what
  each point writes back is the corresponding block of `SqDist.logits` of the launched arrays — whatever the overhang
  holds.
-/
import proofs.«122129_j77369540870222_2_alg».proof.Proof.TileIdeal
import proofs.«122129_j77369540870222_2_alg».proof.Proof.TileValue

set_option maxRecDepth 16384

noncomputable section

namespace Cert.KernelIdeal.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The result array as one function of the launched features and weights. -/
def result (c : Dev nD) : S4096x10000.Idx → Elt Ideal .f32 :=
  SqDist.logits (m ((c : Thread nD τ).loc main_arg0)) (m ((c : Thread nD τ).loc main_arg2))

/-- The block of `result` that point `t` writes back: its part inside the array. -/
def resultBlock (c : Dev nD) (t : Fin cfg0.N) : (win0_2.xblock (grid0.coords t)).Idx → Elt Ideal .f32 :=
  (win0_2.blk t).view.read (Elt Ideal) (result m c)

/-- The pipeline's proof data on core `c`: the arrays as launched; after the body at point `t` the feature buffer
    at its block, the weight buffer at its block on the rows inside the array, the result buffer at the block of
    `result` on the columns inside the array (past the arrays' ends a filler nothing reads); the invariant the scoped
    rest and the generator register; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (Scalar.ofBits (F := Ideal) .f32 0#32 : Elt Ideal .f32)) (iblk m c 1 t)
    | ⟨2, _⟩ => win0_2.fill (grid0.coords t) (fun _ => (Scalar.ofBits (F := Ideal) .f32 0#32 : Elt Ideal .f32)) (resultBlock m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) :
    (dats m 0 c).after 1 t = win0_1.fill (grid0.coords t) (fun _ => (Scalar.ofBits (F := Ideal) .f32 0#32 : Elt Ideal .f32)) (iblk m c 1 t) := by
  dsimp only [dats]
theorem after2 (c : Dev nD) (t : Fin cfg0.N) :
    (dats m 0 c).after 2 t = win0_2.fill (grid0.coords t) (fun _ => (Scalar.ofBits (F := Ideal) .f32 0#32 : Elt Ideal .f32)) (resultBlock m c t) := by
  dsimp only [dats]

/-- The part of the weight buffer the transfers move is the weights' block, -/
theorem cut_after1 (c : Dev nD) (t : Fin cfg0.N) :
    (cfg0.win 1).cut (cfg0.grid.coords t) ((dats m 0 c).after 1 t) = iblk m c 1 t := by
  rw [after1]; exact win0_1.cut_fill _ _ _
/-- and of the result buffer the block of `result`. -/
theorem cut_after2 (c : Dev nD) (t : Fin cfg0.N) :
    (cfg0.win 2).cut (cfg0.grid.coords t) ((dats m 0 c).after 2 t) = resultBlock m c t := by
  rw [after2]; exact win0_2.cut_fill _ _ _

/-- The feature buffer holds the features' block at every point, fetched there or not. -/
theorem before0 (c : Dev nD) (t : Fin cfg0.N) (d) : (dats m 0 c).before 0 t d = iblk m c 0 t :=
  before0_0_of m (dats m 0 c) (A_eq m c 0) (after0 m c) t d

/-- The weight buffer holds, at every point, fetched there or not, the weights' block on the rows inside the array
    and on the others whatever the fetch left there: unfetched, the block index has not moved, and the body leaves
    the buffer as it found it. -/
theorem before1 (c : Dev nD) (t : Fin cfg0.N) (d) :
    (dats m 0 c).before 1 t d = win0_1.fill (grid0.coords t) d (iblk m c 1 t) :=
  ((dats m 0 c).before_in_eq_fetched 1 rfl (fun _ => rfl)
    (fun t t' h => funext fun a => by
      show Pipeline.Clip.of (win0_1.index t a) _ _ = Pipeline.Clip.of (win0_1.index t' a) _ _
      rw [show win0_1.index t = win0_1.index t' from h])
    (fun t => by rw [cut_after1]; unfold Dat.blockOf iblk; rw [A_eq]) t d).trans
    (by unfold Dat.fetched Dat.blockOf iblk; rw [A_eq])

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t)))))

/-! ## Where the tiles sit -/

/-- The index maps over the grid: the feature tile moves with the result tile's rows and the weight tile with its
    columns; only the last of the five column blocks is cut, to 1808 columns, and the weight tile's rows are cut
    exactly as the result tile's columns. -/
theorem idx_facts : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7
    ∧ win0_2.xsize (grid0.coords t) (0 : Fin 2) = 512
    ∧ win0_1.xsize (grid0.coords t) (1 : Fin 2) = 512
    ∧ win0_1.xsize (grid0.coords t) (0 : Fin 2) = win0_2.xsize (grid0.coords t) (1 : Fin 2)
    ∧ ((win0_2.index t (1 : Fin 2) < 4 ∧ win0_2.xsize (grid0.coords t) (1 : Fin 2) = 2048)
        ∨ (win0_2.index t (1 : Fin 2) = 4 ∧ win0_2.xsize (grid0.coords t) (1 : Fin 2) = 1808)) :=
  (by decide +kernel : ∀ t : Fin grid0.N, _)

/-- Every pair (row block, column block) is some point's. -/
theorem idx_onto : ∀ (q0 : Fin 8) (q1 : Fin 5), ∃ t : Fin cfg0.N, win0_2.index t = ![q0.val, q1.val] :=
  (by decide +kernel : ∀ (q0 : Fin 8) (q1 : Fin 5), ∃ t : Fin grid0.N, win0_2.index t = ![q0.val, q1.val])

/-- Row p of the feature block at point `t` is row 512·ib + p of the launched features. -/
theorem feature_row (c : Dev nD) (t : Fin cfg0.N) (p k : Fin 512) (r : Fin 4096)
    (hr : r.val = win0_0.index t (0 : Fin 2) * 512 + p.val) (h1 : win0_0.index t (1 : Fin 2) = 0) :
    iblk m c 0 t (ix2 p k) = m ((c : Thread nD τ).loc main_arg0) (ix2 r k) := by
  show V m c main_arg0 ((win0_0.blk t).view.emb (ix2 p k)) = _
  exact congrArg (m ((c : Thread nD τ).loc main_arg0)) (funext fun a => Fin.ext (by
    match a with
    | ⟨0, _⟩ => show win0_0.index t (0 : Fin 2) * 512 + 1 * p.val = r.val; omega
    | ⟨1, _⟩ => show win0_0.index t (1 : Fin 2) * 512 + 1 * k.val = k.val; omega))

/-- Row q of the weight buffer, for a row q the fetch moved, is row 2048·jc + q of the launched weights, whatever the
    buffer holds on the rows the fetch did not move. -/
theorem weight_row (c : Dev nD) (t : Fin cfg0.N) (d : S2048x512.Idx → Elt Ideal .f32) (q : Fin 2048) (k : Fin 512)
    (hq : q.val < win0_1.xsize (grid0.coords t) (0 : Fin 2)) (hk : k.val < win0_1.xsize (grid0.coords t) (1 : Fin 2))
    (r : Fin 10000) (hr : r.val = win0_1.index t (0 : Fin 2) * 2048 + q.val) (h1 : win0_1.index t (1 : Fin 2) = 0) :
    win0_1.fill (grid0.coords t) d (iblk m c 1 t) (ix2 q k) = m ((c : Thread nD τ).loc main_arg2) (ix2 r k) := by
  have hw : (ix2 q k : S2048x512.Idx) = win0_1.xinj (grid0.coords t)
      (fun a => match a with | ⟨0, _⟩ => ⟨q.val, hq⟩ | ⟨1, _⟩ => ⟨k.val, hk⟩) :=
    funext fun a => Fin.ext (by match a with | ⟨0, _⟩ => rfl | ⟨1, _⟩ => rfl)
  rw [hw, win0_1.fill_xinj]
  show V m c main_arg2 ((win0_1.blk t).view.emb _) = _
  exact congrArg (m ((c : Thread nD τ).loc main_arg2)) (funext fun a => Fin.ext (by
    match a with
    | ⟨0, _⟩ => show win0_1.index t (0 : Fin 2) * 2048 + 1 * q.val = r.val; omega
    | ⟨1, _⟩ => show win0_1.index t (1 : Fin 2) * 512 + 1 * k.val = k.val; omega))

/-- THE TILE IS THE BLOCK.  On the columns that are written back, the body's output tile — computed from the feature
    block and from a weight buffer holding the weights' block on the rows inside the array and anything (`d`) past
    them — is the block of `result`: entry (p, q) reads row p of the feature block, which is row 512·ib + p of the
    features, and row q of the weight buffer, which for a column q that is written back is row 2048·jc + q of the
    weights, inside the array. -/
theorem tile_is_block (c : Dev nD) (t : Fin cfg0.N) (d : S2048x512.Idx → Elt Ideal .f32) :
    win0_2.cut (grid0.coords t) (k0_pay1 (F := Ideal) (iblk m c 0 t) (win0_1.fill (grid0.coords t) d (iblk m c 1 t)))
      = resultBlock m c t := by
  obtain ⟨e00, e01, e10, e11, -, x20, x11, x10, -⟩ := idx_facts t
  funext j
  have hj0 : (j 0).val < 512 := Nat.lt_of_lt_of_eq (j 0).isLt x20
  have hj1 : (j 1).val < 2048 := Nat.lt_of_lt_of_le (j 1).isLt (win0_2.xsize_le _ 1)
  have hjw : (j 1).val < win0_1.xsize (grid0.coords t) (0 : Fin 2) := Nat.lt_of_lt_of_eq (j 1).isLt x10.symm
  have hx : win0_2.xinj (grid0.coords t) j = ix2 (⟨(j 0).val, hj0⟩ : Fin 512) (⟨(j 1).val, hj1⟩ : Fin 2048) :=
    funext fun a => Fin.ext (by match a with | ⟨0, _⟩ => rfl | ⟨1, _⟩ => rfl)
  show k0_pay1 (F := Ideal) (iblk m c 0 t) (win0_1.fill (grid0.coords t) d (iblk m c 1 t)) (win0_2.xinj (grid0.coords t) j)
    = result m c ((win0_2.blk t).view.emb j)
  rw [hx]
  refine (TileValue.tile_apply (iblk m c 0 t) (win0_1.fill (grid0.coords t) d (iblk m c 1 t)) ⟨(j 0).val, hj0⟩ ⟨(j 1).val, hj1⟩).trans ?_
  show SqDist.cell _ _ = SqDist.cell (fun k => m ((c : Thread nD τ).loc main_arg0) (ix2 (((win0_2.blk t).view.emb j) 0) k))
    (fun k => m ((c : Thread nD τ).loc main_arg2) (ix2 (((win0_2.blk t).view.emb j) 1) k))
  refine congr (congrArg SqDist.cell (funext fun k => ?_)) (funext fun k => ?_)
  · exact feature_row m c t ⟨(j 0).val, hj0⟩ k _
      (by show win0_2.index t (0 : Fin 2) * 512 + 1 * (j 0).val = win0_0.index t (0 : Fin 2) * 512 + (j 0).val; omega) e01
  · exact weight_row m c t d ⟨(j 1).val, hj1⟩ k hjw (Nat.lt_of_lt_of_eq k.isLt x11.symm) _
      (by show win0_2.index t (1 : Fin 2) * 2048 + 1 * (j 1).val = win0_1.index t (0 : Fin 2) * 2048 + (j 1).val; omega) e11

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, cut_after1, cut_after2]
  iintro ⟨HΦ, Ho, ⟨%d0, H0⟩, ⟨%d1, H1⟩, ⟨%d2, H2⟩⟩
  iapply (Tile.sound_kernel c Set.univ (grid0.coords t) _ _ _ _ _ _ (iblk m c 0 t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  iexists (k0_pay1 (F := Ideal) (iblk m c 0 t) (win0_1.fill (grid0.coords t) d1 (iblk m c 1 t)))
  rw [← tile_is_block m c t d1, Window.fill_cut, ← Tile.stored_eq]
  iexact H2

/-- The body obligation at every point: the feature window exact, the two overhanging windows stated on the part
    their transfers move. -/
theorem body_obligation (c : Dev nD) :
    BodyObligationLoose (dats m 0 c) (defs₀ (F := Ideal)) Variants.none () Set.univ := fun t => by
  rw [bigSep_W0, bigSep_W0]
  exact sound_body m c t

set_option backward.isDefEq.respectTransparency.types false in
/-- Every weakly fair execution of @main terminates, nothing faulting, every array of the pipeline at what the library
    computes from the proof data and every other unscoped buffer as launched. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-! ## From the blocks to the array -/

/-- What point `t` writes back is the block of `result` there. -/
theorem flushed_eq (c : Dev nD) (t : Fin cfg0.N) :
    (dats m 0 c).flushed 2 t = ((cfg0.win 2).blk t).view.read (Elt Ideal) (result m c) := by
  show (cfg0.win 2).cut (cfg0.grid.coords t) ((dats m 0 c).after 2 t) = _
  rw [cut_after2]; rfl

/-- An index of the result array is in point `t`'s block iff each coordinate lies in the block's range on its axis,
    the range cut at the array's end. -/
theorem mem_blk (t : Fin cfg0.N) (i : S4096x10000.Idx) :
    i ∈ ((cfg0.win 2).blk t).view.set ↔ ∀ a : Fin 2, win0_2.index t a * S512x2048.size a ≤ (i a).val
      ∧ (i a).val < win0_2.index t a * S512x2048.size a + win0_2.xsize (grid0.coords t) a := by
  show i ∈ ((View.whole main_v0).slice (win0_2.rect t)).set ↔ _
  rw [View.set_slice_whole, Rect.mem_set_unit]
  exact Iff.rfl

/-- Every index of the result array is written back by some point: row r by row block r / 512, column s by column
    block s / 2048 — the last of which has 1808 columns, exactly those up to 9999. -/
theorem cover (i : S4096x10000.Idx) :
    ∃ t : Fin cfg0.N, (cfg0.win 2).flush t = true ∧ i ∈ ((cfg0.win 2).blk t).view.set := by
  have hi0 : (i 0).val < 4096 := (i 0).isLt
  have hi1 : (i 1).val < 10000 := (i 1).isLt
  obtain ⟨t, ht⟩ := idx_onto ⟨(i 0).val / 512, by omega⟩ ⟨(i 1).val / 2048, by omega⟩
  have q0 : win0_2.index t (0 : Fin 2) = (i 0).val / 512 := congrFun ht 0
  have q1 : win0_2.index t (1 : Fin 2) = (i 1).val / 2048 := congrFun ht 1
  obtain ⟨-, -, -, -, -, x20, -, -, hx⟩ := idx_facts t
  refine ⟨t, flush0_2 t, ?_⟩
  rw [mem_blk]
  intro a
  match a with
  | ⟨0, _⟩ =>
    show win0_2.index t (0 : Fin 2) * 512 ≤ (i 0).val
      ∧ (i 0).val < win0_2.index t (0 : Fin 2) * 512 + win0_2.xsize (grid0.coords t) (0 : Fin 2)
    omega
  | ⟨1, _⟩ =>
    show win0_2.index t (1 : Fin 2) * 2048 ≤ (i 1).val
      ∧ (i 1).val < win0_2.index t (1 : Fin 2) * 2048 + win0_2.xsize (grid0.coords t) (1 : Fin 2)
    rcases hx with ⟨h4, hs⟩ | ⟨h4, hs⟩ <;> omega

/-- The result array after the run is `result`. -/
theorem final (c : Dev nD) : (dats m 0 c).arrAt 2 cfg0.N = result m c :=
  (dats m 0 c).arrAt_eq_of_cover 2 (result m c) (fun t _ => flushed_eq m c t) cover

/-- The run, read: the result array ends at `SqDist.logits` of the launched features and weights, and the three
    arguments end as launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c)))⟩)
    (run_main m ρ)

end Cert.KernelIdeal.IdealRun

end
-- ==== Proof.RefValue.lean ====
/-
  The reference, read entry by entry on the extended reals.  Its result at (b, j) is computed from the sum of squares
  of feature row b (a host sum: the initial value zero plus the sum), the sum of squares of weight row j, and the
  general dot product of the two rows; the broadcasts only re-index, the float two and the float nearest −1/100 are
  the kernel's two words, and the final product with the float one changes nothing (1 · x = x on every extended
  real).  So both results are `SqDist.logits` of the two argument arrays.
-/
import proofs.«122129_j77369540870222_2_alg».proof.Proof.Gen.ReferenceIdeal.Read
import proofs.«122129_j77369540870222_2_alg».proof.Proof.SqDist
import Idealize.ShloMosaic.PureOps.IdealRules

noncomputable section

namespace Cert.ReferenceIdeal.RefValue

open Cert.ReferenceIdeal Cert.ReferenceIdeal.Gen Cert.ReferenceIdeal.Read Idealize.ShloMosaic Idealize.ShloMosaic.ValueIdx

/-- The float one is the real one. -/
theorem one_f32 : Ideal.ofBits .f32 0x3F800000#32 = 1 := IdealRules.sign_bit.ideal_onePat .f32

/-- The exponential stage (before the two products with one) at an entry. -/
theorem exp_stage (x0 : (⟨S4096x512, .f32⟩ : BufTy).Contents (Elt Ideal)) (x2 : (⟨S10000x512, .f32⟩ : BufTy).Contents (Elt Ideal))
    (i : S4096x10000.Idx) :
    val_main_v17 (F := Ideal) x0 x2 i = SqDist.cell (fun k => x0 (ix2 (i 0) k)) (fun k => x2 (ix2 (i 1) k)) := by
  have h1 : ∀ k : Fin 512, idx_main_v1 (idx_main_v2 (idx_main_v7 i)) k = ix2 (i 0) k := fun k =>
    funext fun a => Fin.ext (by match a with | ⟨0, _⟩ => rfl | ⟨1, _⟩ => rfl)
  have h4 : ∀ k : Fin 512, idx_main_v4 (idx_main_v5 (idx_main_v8 i)) k = ix2 (i 1) k := fun k =>
    funext fun a => Fin.ext (by match a with | ⟨0, _⟩ => rfl | ⟨1, _⟩ => rfl)
  have hl : ∀ k : Fin 512, lidx_main_v6 i k = ix2 (i 0) k := fun k =>
    funext fun a => Fin.ext (by match a with | ⟨0, _⟩ => rfl | ⟨1, _⟩ => rfl)
  have hr : ∀ k : Fin 512, ridx_main_v6 i k = ix2 (i 1) k := fun k =>
    funext fun a => Fin.ext (by match a with | ⟨0, _⟩ => rfl | ⟨1, _⟩ => rfl)
  rw [val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v6_apply, val_main_v9_apply, val_main_v7_apply, val_main_v2_apply, val_main_v1_apply,
    val_main_cst_apply, val_main_v8_apply, val_main_v5_apply, val_main_v4_apply, val_main_cst_0_apply]
  simp only [val_main_v0_apply, val_main_v3_apply, h1, h4, hl, hr, Ideal.hostUnary_exp_def, Ideal.mulf_def,
    Ideal.addf_def, Ideal.subf_def, Ideal.maximumf_def, Ideal.ofBits_def, Ideal.ofBits_zero_f32, zero_add]
  rfl

/-- The first result is `SqDist.logits` of the arguments, -/
theorem first_result (x0 : (⟨S4096x512, .f32⟩ : BufTy).Contents (Elt Ideal)) (x2 : (⟨S10000x512, .f32⟩ : BufTy).Contents (Elt Ideal)) :
    val_main_v19 (F := Ideal) x0 x2 = SqDist.logits x0 x2 := by
  funext i
  rw [val_main_v19_apply, val_main_v18_apply, val_main_cst_4_apply, exp_stage]
  simp only [Ideal.mulf_def, Ideal.ofBits_def, one_f32, one_mul]
  rfl

/-- and so is the second. -/
theorem second_result (x0 : (⟨S4096x512, .f32⟩ : BufTy).Contents (Elt Ideal)) (x2 : (⟨S10000x512, .f32⟩ : BufTy).Contents (Elt Ideal)) :
    val_main_v21 (F := Ideal) x0 x2 = SqDist.logits x0 x2 := by
  funext i
  rw [val_main_v21_apply, val_main_v20_apply, val_main_cst_5_apply, exp_stage]
  simp only [Ideal.mulf_def, Ideal.ofBits_def, one_f32, one_mul]
  rfl

end Cert.ReferenceIdeal.RefValue

end
-- ==== Proof.lean ====
/-
  Pairwise radial-kernel logits: for features f[4096, 512] and weights w[10000, 512] both programs return, twice,
      out[b, j] = exp (c · max (‖f_b‖² + ‖w_j‖² − 2 · ⟨f_b, w_j⟩, 0))
  (c the float nearest −1/100), and the weights unchanged.  The kernel computes it tile by tile on a 5 × 8 grid —
  2048 weight rows against 512 feature rows at a time, the inner products by a matrix product of the tiles rounded
  to bf16, the squared norms by lane sums of the resident tiles — and the reference over the whole arrays with one
  general dot product.  On the extended reals rounding is the identity, a lane sum and a host sum are the same sum,
  the matrix product into a zero accumulator is the dot product, and the reference's last product with one is the
  identity; so entry by entry both are `SqDist.cell` of feature row b and weight row j (`SqDist.logits`).  No
  finiteness of the inputs is used: the two sides apply the same operations in the same order.

  The tiling does not divide the weights' 10000 rows (4 · 2048 + 1808): the last weight tile holds, past row 1807,
  words nothing names, and they reach only output columns that are never written back, because an output entry reads
  one row of each tile.

  The claims: the word-level kernel's frame with no staging contents named (`Kernel.Unnamed.frame`); the idealized
  kernel's frame and value from one run with every tile named (`KernelIdeal.IdealRun`); the reference's frame and
  value from its run read stage by stage (`ReferenceIdeal.RefValue`); no rewrite was made by idealization, so that
  conjunct is trivial.
-/
import proofs.«122129_j77369540870222_2_alg».proof.Defs
import proofs.«122129_j77369540870222_2_alg».proof.Proof.Gen.Kernel
import proofs.«122129_j77369540870222_2_alg».proof.Proof.Gen.KernelIdeal
import proofs.«122129_j77369540870222_2_alg».proof.Proof.Gen.ReferenceIdeal
import proofs.«122129_j77369540870222_2_alg».proof.Proof.Gen.Pre_finite_inputs
import proofs.«122129_j77369540870222_2_alg».proof.Proof.FrameBits
import proofs.«122129_j77369540870222_2_alg».proof.Proof.IdealRun
import proofs.«122129_j77369540870222_2_alg».proof.Proof.RefValue
import Idealize.ShloMosaic.Adequacy
import Idealize.ShloMosaic.Init

noncomputable section

namespace Cert.Proof

open Idealize.ShloMosaic Idealize.SL.Sem

/-- The word-level kernel terminates, faults nowhere and leaves its arguments unchanged. -/
theorem frame_kernel : Cert.frame_Kernel := fun m ρ _ => Cert.Kernel.Unnamed.frame (F := Bits) m ρ

/-- So does the idealized kernel. -/
theorem frame_ideal : Cert.frame_KernelIdeal := fun m ρ _ => Cert.KernelIdeal.IdealRun.frame m ρ

/-- The reference's frame is its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- Idealization rewrote nothing. -/
theorem preserves : Cert.preserves_Kernel_KernelIdeal := trivial

/-- From memories agreeing on the arguments both programs end with the result `SqDist.logits` of the features and
    the weights, twice, and with the weights. -/
theorem algebraic : Cert.algebraic_KernelIdeal_ReferenceIdeal := by
  intro m ρ m' ρ' _ hagree
  refine ⟨fun c => Cert.KernelIdeal.IdealRun.result m c, fun c => Cert.KernelIdeal.IdealRun.result m c,
    fun c => m ((c.tc : Thread Cert.KernelIdeal.nD Cert.KernelIdeal.τ).loc Cert.KernelIdeal.main_arg2), ?_, ?_⟩
  · exact (θ_run Cert.KernelIdeal.defs _ _).mono
      (fun r h c => ⟨(h c).1, (h c).1, (h c).2.2.2, (h c).2.1, (h c).2.2.1, (h c).2.2.2⟩)
      (Cert.KernelIdeal.IdealRun.run m ρ)
  · refine (θ_run Cert.ReferenceIdeal.defs _ _).mono
      (fun r h c => ⟨?_, ?_, (h c).2.2.1.trans (hagree c).2.2, (h c).2.2.2.1, (h c).2.2.2.2.1, (h c).2.2.2.2.2⟩)
      (Cert.ReferenceIdeal.Value.run (F := Ideal) m' ρ')
    · exact (h c).1.trans ((Cert.ReferenceIdeal.Read.val_main_v19_eq _ _).trans
        ((Cert.ReferenceIdeal.RefValue.first_result _ _).trans
          (congr (congrArg Cert.SqDist.logits (hagree c).1) (hagree c).2.2)))
    · exact (h c).2.1.trans ((Cert.ReferenceIdeal.Read.val_main_v21_eq _ _).trans
        ((Cert.ReferenceIdeal.RefValue.second_result _ _).trans
          (congr (congrArg Cert.SqDist.logits (hagree c).1) (hagree c).2.2)))

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
